-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64x64 : Shape := ⟨2, ![64, 64]⟩
abbrev S64x40 : Shape := ⟨2, ![64, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_

variable [Facts]

def fn_part1 {F : FTy → Type} [FloatOps F] (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S128x64 .f32) (main_arg4 : FVec F S64x64 .f32) (main_arg5 : FVec F S64x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x40 .f32 := Host.absf main_arg5
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64x64 : Shape := ⟨2, ![64, 64]⟩
abbrev S64x40 : Shape := ⟨2, ![64, 40]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S100000x40 : Shape := ⟨2, ![100000, 40]⟩
abbrev S10000x40 : Shape := ⟨2, ![10000, 40]⟩
abbrev S1600000x40 : Shape := ⟨2, ![1600000, 40]⟩
abbrev S10000 : Shape := ⟨1, ![10000]⟩
abbrev S10000x1 : Shape := ⟨2, ![10000, 1]⟩

abbrev nBuf : Space → Nat
  | .hbm => 49
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64x64, .f32⟩
  | .hbm, ⟨5, _⟩ => ⟨S64x40, .f32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x40, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S10000x40, .f32⟩
  | .local _ .vmem, ⟨18, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S_S100000x40 : S_.BroadcastsInDim S100000x40 (![] : Fin 0 → Fin S100000x40.rank)
  shapeCasts_S10000x40_S10000x40 : S10000x40.ShapeCasts S10000x40
  reduces_S10000x40_S10000 : S10000x40.Reduces [1] S10000
  shapeCasts_S10000_S10000x1 : S10000.ShapeCasts S10000x1
  broadcasts_S10000x1_S10000x40 : S10000x1.Broadcasts S10000x40
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x40.size a ≤ S100000x40.size a
  hwx3_1 : ∀ i : grid3.Coords, EltTy.bits .f32 = 32 ∨ (Rect.block (s := S100000x40) S10000x40.size (cc3_transform_1 i) (hinb3_1 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v21) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S10000x40.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64x64 : Shape := ⟨2, ![64, 64]⟩
abbrev S64x40 : Shape := ⟨2, ![64, 40]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x40 : Shape := ⟨2, ![100000, 40]⟩
abbrev S1600000x40 : Shape := ⟨2, ![1600000, 40]⟩
abbrev S100000 : Shape := ⟨1, ![100000]⟩
abbrev S100000x1 : Shape := ⟨2, ![100000, 1]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64x64, .f32⟩
  | .hbm, ⟨5, _⟩ => ⟨S64x40, .f32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x40, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S_, .f32⟩
  | .hbm, ⟨49, _⟩ => ⟨S100000, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S100000x40, .f32⟩
  | .hbm, ⟨55, _⟩ => ⟨S100000x40, .f32⟩
  | .hbm, ⟨56, _⟩ => ⟨S100000x40, .f32⟩
  | .hbm, ⟨57, _⟩ => ⟨S_, .f32⟩
  | .hbm, ⟨58, _⟩ => ⟨S100000, .f32⟩
  | .hbm, ⟨59, _⟩ => ⟨S100000x1, .f32⟩
  | .hbm, ⟨60, _⟩ => ⟨S100000x1, .f32⟩
  | .hbm, ⟨61, _⟩ => ⟨S100000x40, .f32⟩
  | .hbm, ⟨62, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_call0_cst_0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_cst_1 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_v33 : Ref sig .tc := ⟨.hbm, 62, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000x40 : S_.BroadcastsInDim S100000x40 (![] : Fin 0 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The kernel's run, with what every buffer holds at the end.

  @main is seven segments: four launches of a tiled kernel and, between them, three stretches of host operations
  (the gather along the edges' sources and the sum into the edges' targets). The contents of the TensorCore's
  buffers at each segment boundary are a fold from the launch memory: a stretch of host operations applies its
  operations to what the boundary before it left, and a kernel launch replaces each of its arrays by what its grid
  of blocks writes back. The generated modules build that fold (`Gen.W0 … Gen.W7`) and one record per segment.
  Launched over those segments, every weakly fair execution terminates, and at the end every buffer that outlives
  a launch holds the last boundary's contents `Gen.W7`: in particular the result buffer, and the six arguments,
  which no segment writes.
-/
import proofs.«122634_j76922864272070_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every buffer that outlives a launch ends at the last
    segment boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run, read at the result buffer and at the six arguments. -/
theorem run_result : θ_run defs (onTc (τ := τ) (main (F := F))) ⟨m, fun _ => 0, ρ⟩ (fun r => ∀ c : Dev nD,
      r.2.mem ((c.tc : Thread nD τ).loc main_v33) = W7 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v33 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_boundary m ρ)

end Cert.KernelIdeal.RunValue

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.RowMath.lean ====
/-
  The mathematics the two programs share, over the extended reals.

  One graph-convolution layer multiplies the node features by a weight matrix and then sums, for every node, the
  rows of the product that its incoming edges name; after three layers each node's 40 scores are normalised by a
  log-softmax along the row. Stated here, index by index, are the two dense steps:

  * `dense a w`: entry `(r, q)` is `Σ k, a (r, k) * w (k, q)`. A sum over a finite index set in a commutative
    monoid has no order, so the product of a block of rows is the block of rows of the product.
  * `logSoftmaxRows b x`: entry `(r, q)` is `(x (r, q) - M r) - log (Σ j, exp (x (r, j) - M r))` with
    `M r = max b (max_j x (r, j))` taken as a fold of `max` from `b` (the programs start it from -∞); every entry of a
    row depends on that row only, so a block of rows of the result is the result of the block.
-/
import Idealize.ShloMosaic.Lib.ValueIdx
import Idealize.ShloMosaic.PureOps.Ideal.Laws

noncomputable section

namespace Cert.RowMath

open Idealize.ShloMosaic Idealize.ShloMosaic.ValueIdx

variable {M K N : Nat}

/-- The row of an index of an `[M, N]` array. -/
abbrev rowOf (i : (⟨2, ![M, N]⟩ : Shape).Idx) : Fin M := ⟨(i 0).val, idx2_lt0 i⟩
/-- The column of an index of an `[M, N]` array. -/
abbrev colOf (i : (⟨2, ![M, N]⟩ : Shape).Idx) : Fin N := ⟨(i 1).val, idx2_lt1 i⟩

/-- Every index is its row and its column. -/
theorem eq_row_col (i : (⟨2, ![M, N]⟩ : Shape).Idx) : i = ix2 (rowOf i) (colOf i) := by
  funext a; match a with | ⟨0, _⟩ => rfl | ⟨1, _⟩ => rfl

/-- The product of an `[M, K]` array and a `[K, N]` array. -/
def dense (a : FVec Ideal ⟨2, ![M, K]⟩ .f32) (w : FVec Ideal ⟨2, ![K, N]⟩ .f32) : FVec Ideal ⟨2, ![M, N]⟩ .f32 :=
  fun i => ∑ k : Fin K, a (ix2 (rowOf i) k) * w (ix2 k (colOf i))

theorem dense_apply (a : FVec Ideal ⟨2, ![M, K]⟩ .f32) (w : FVec Ideal ⟨2, ![K, N]⟩ .f32) (p : Fin M) (q : Fin N) :
    dense a w (ix2 p q) = ∑ k : Fin K, a (ix2 p k) * w (ix2 k q) := rfl

/-- What both programs start the fold of `max` from: the value of the word they print for -∞. It is never evaluated:
    the same word stands on both sides. -/
abbrev start : EReal := Ideal.ofBits .f32 0xFF800000#32

/-- The largest entry of row `p`, as a fold of `max` from `b`. -/
def rowMax (b : EReal) (x : FVec Ideal ⟨2, ![M, N]⟩ .f32) (p : Fin M) : EReal :=
  (Finset.univ : Finset (Fin N)).fold max b fun j => x (ix2 p j)

/-- Starting the fold from `b` already bounds it below by `b`: taking `max b` once more changes nothing. -/
theorem max_rowMax (b : EReal) (x : FVec Ideal ⟨2, ![M, N]⟩ .f32) (p : Fin M) : max b (rowMax b x p) = rowMax b x p := by
  unfold rowMax
  exact max_eq_right ((Finset.le_fold_max b).2 (Or.inl le_rfl))

/-- The row-wise log-softmax. -/
def logSoftmaxRows (b : EReal) (x : FVec Ideal ⟨2, ![M, N]⟩ .f32) : FVec Ideal ⟨2, ![M, N]⟩ .f32 :=
  fun i => (x i - rowMax b x (rowOf i)) - Ideal.log (∑ j : Fin N, Ideal.exp (x (ix2 (rowOf i) j) - rowMax b x (rowOf i)))

theorem logSoftmaxRows_apply (b : EReal) (x : FVec Ideal ⟨2, ![M, N]⟩ .f32) (p : Fin M) (q : Fin N) :
    logSoftmaxRows b x (ix2 p q)
      = (x (ix2 p q) - rowMax b x p) - Ideal.log (∑ j : Fin N, Ideal.exp (x (ix2 p j) - rowMax b x p)) := rfl

/-- An entry of the log-softmax reads its own row only: two arrays that agree along the rows of two indices, and
    at the indices, have the same log-softmax there. So the log-softmax of a block of rows is the block of rows of
    the log-softmax. -/
theorem logSoftmaxRows_congr {M' : Nat} (b : EReal) (X : FVec Ideal ⟨2, ![M, N]⟩ .f32) (A : FVec Ideal ⟨2, ![M', N]⟩ .f32)
    (j : (⟨2, ![M, N]⟩ : Shape).Idx) (i : (⟨2, ![M', N]⟩ : Shape).Idx)
    (hrow : ∀ k : Fin N, X (ix2 (rowOf j) k) = A (ix2 (rowOf i) k)) (hij : X j = A i) :
    logSoftmaxRows b X j = logSoftmaxRows b A i := by
  unfold logSoftmaxRows rowMax
  simp only [hrow, hij]

end Cert.RowMath

end
-- ==== Proof.Layer0.lean ====
/-
  The first dense layer: the node features times the first weight matrix.

  The launch walks ten blocks of 10000 rows. At block `t` the body multiplies rows `10000 t … 10000 t + 9999` of the
  features by the whole weight matrix (the narrowing of both operands to bf16 is the identity on extended reals,
  and the matrix unit accumulates into zero), and writes the product back as rows `10000 t … 10000 t + 9999` of the
  result. Entry `(r, q)` of a product reads row `r` of the left operand only, so the block of rows of the product
  is the product of the block of rows; the ten blocks tile the 100000 rows; hence the result array ends holding
  the whole product `dense x w`.
-/
import proofs.«122634_j76922864272070_1_alg».proof.Proof.Gen.KernelIdeal.Frame
import proofs.«122634_j76922864272070_1_alg».proof.Proof.LibDenseBlock
import proofs.«122634_j76922864272070_1_alg».proof.Proof.RowMath
import Idealize.ShloMosaic.Lib.Pipeline.Value

noncomputable section

namespace Cert.KernelIdeal.Layer0

open Cert.KernelIdeal Cert.KernelIdeal.Gen Cert.RowMath
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of the body's product of a block of rows with the weights. -/
theorem product_apply (x : Vec Ideal S10000x128 .f32) (w : Vec Ideal S128x64 .f32) (p : Fin 10000) (q : Fin 64) :
    k0_pay1 x w (ix2 p q) = ∑ k : Fin 128, x (ix2 p k) * w (ix2 k q) := by
  unfold k0_pay1
  exact DenseBlock.matmul_zero_apply Facts₀.dot_S10000x128_S128x64_S10000x64_1_0_0_1_n_n_wf
    (truncf .bf16 x Facts₀.bitsLt_bf16_f32) (truncf .bf16 w Facts₀.bitsLt_bf16_f32) p q

/-- The body's product is the product. -/
theorem product_eq (x : Vec Ideal S10000x128 .f32) (w : Vec Ideal S128x64 .f32) :
    k0_pay1 x w = dense (M := 10000) (K := 128) (N := 64) x w := by
  funext j
  obtain ⟨p, q, rfl⟩ : ∃ (p : Fin 10000) (q : Fin 64), j = ix2 p q := ⟨j 0, j 1, eq_ix2 j⟩
  exact product_apply x w p q

/-- The printed index maps over the ten points: the features' block moves with the result's block along the rows,
    nothing moves along the columns, and the weights' block never moves. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the ten row blocks is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- The features' block at point `t`, entry `y`, is the features at row `10000 · (block index) + y₀`, column `y₁`. -/
theorem rows_read (c : Dev nD) (t : Fin cfg0.N) (y : S10000x128.Idx) (i : S100000x128.Idx)
    (h0 : (i 0).val = win0_2.index t (0 : Fin 2) * 10000 + (y 0).val) (h1 : (i 1).val = (y 1).val) :
    (iblk0 V c 0 t : Vec Ideal S10000x128 .f32) y = (V c main_arg0 : S100000x128.Idx → Elt Ideal .f32) i := by
  obtain ⟨e0, e1, -⟩ := index_facts t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weights' block at every point is the whole weight matrix. -/
theorem weights_read (c : Dev nD) (t : Fin cfg0.N) (y : S128x64.Idx) (i : S128x64.Idx)
    (h0 : (i 0).val = (y 0).val) (h1 : (i 1).val = (y 1).val) :
    (iblk0 V c 1 t : Vec Ideal S128x64 .f32) y = (V c main_arg3 : S128x64.Idx → Elt Ideal .f32) i := by
  obtain ⟨-, -, e2, e3, -⟩ := index_facts t
  unfold iblk0
  rw [View.read_apply]
  show V c main_arg3 _ = V c main_arg3 _
  refine congrArg (V c main_arg3) (funext fun a => Fin.ext ?_)
  match a with
  | ⟨0, _⟩ => show win0_1.index t (0 : Fin 2) * 128 + 1 * (y 0).val = (i 0).val; rw [e2, h0]; omega
  | ⟨1, _⟩ => show win0_1.index t (1 : Fin 2) * 64 + 1 * (y 1).val = (i 1).val; rw [e3, h1]; omega

/-- The product of the block of rows is the block of rows of the product. -/
theorem block_product (c : Dev nD) (t : Fin cfg0.N) :
    dense (M := 10000) (K := 128) (N := 64) (iblk0 V c 0 t : Vec Ideal S10000x128 .f32) (iblk0 V c 1 t : Vec Ideal S128x64 .f32)
      = ((cfg0.win 2).blk t).view.read (Elt Ideal)
          (dense (M := 100000) (K := 128) (N := 64) (V c main_arg0) (V c main_arg3)) := by
  obtain ⟨-, -, -, -, e4⟩ := index_facts t
  funext j
  rw [View.read_apply]
  unfold dense
  refine Finset.sum_congr rfl fun k _ => ?_
  refine congrArg₂ (· * ·) (rows_read V c t _ _ ?_ ?_) (weights_read V c t _ _ ?_ ?_)
  · show win0_2.index t (0 : Fin 2) * 10000 + 1 * (j 0).val = win0_2.index t (0 : Fin 2) * 10000 + (j 0).val; omega
  · rfl
  · rfl
  · show win0_2.index t (1 : Fin 2) * 64 + 1 * (j 1).val = (j 1).val; rw [e4]; omega

/-- What point `t` writes back is block `t` of the whole product. -/
theorem flushed_eq (c : Dev nD) (t : Fin cfg0.N) :
    (dat0 (F := Ideal) V c).flushed 2 t = ((cfg0.win 2).blk t).view.read (Elt Ideal)
      (dense (M := 100000) (K := 128) (N := 64) (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  rw [product_eq (iblk0 V c 0 t) (iblk0 V c 1 t)]
  exact block_product V c t

/-- An index of the result array is in point `t`'s block iff each coordinate is in the block's range. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- The ten blocks tile the result array: row `r` is in block `r / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the launch the result array holds the whole product of the arrays the launch found. -/
theorem array_eq (c : Dev nD) :
    (dat0 (F := Ideal) V c).arrAt 2 cfg0.N = dense (M := 100000) (K := 128) (N := 64) (V c main_arg0) (V c main_arg3) :=
  (dat0 (F := Ideal) V c).arrAt_eq_of_cover 2 _ (fun t _ => flushed_eq V c t) covered

end Cert.KernelIdeal.Layer0

end
-- ==== Proof.Layer1.lean ====
/-
  The second dense layer: the first layer's aggregated features times the second weight matrix.

  The launch walks ten blocks of 10000 rows. At block `t` the body multiplies rows `10000 t … 10000 t + 9999` of the aggregated features
  by the whole weight matrix (the narrowing of both operands to bf16 is the identity on extended reals, the
  cast of the block to its own shape is the identity, and the matrix unit accumulates into zero), and writes the
  product back as the same rows of the result. Entry `(r, q)` of a product reads row `r` of the left operand only,
  so the block of rows of the product is the product of the block of rows; the ten blocks tile the 100000 rows;
  hence the result array ends holding the whole product `dense h w`, a sum over 64 terms per entry.
-/
import proofs.«122634_j76922864272070_1_alg».proof.Proof.Gen.KernelIdeal.Frame
import proofs.«122634_j76922864272070_1_alg».proof.Proof.LibDenseBlock
import proofs.«122634_j76922864272070_1_alg».proof.Proof.RowMath
import Idealize.ShloMosaic.Lib.Pipeline.Value

noncomputable section

namespace Cert.KernelIdeal.Layer1

open Cert.KernelIdeal Cert.KernelIdeal.Gen Cert.RowMath
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of the body's product of a block of rows with the weights. -/
theorem product_apply (x : Vec Ideal S10000x64 .f32) (w : Vec Ideal S64x64 .f32) (p : Fin 10000) (q : Fin 64) :
    k1_pay1 x w (ix2 p q) = ∑ k : Fin 64, x (ix2 p k) * w (ix2 k q) := by
  unfold k1_pay1
  simp only [shapeCast_self]
  exact DenseBlock.matmul_zero_apply Facts₀.dot_S10000x64_S64x64_S10000x64_1_0_0_1_n_n_wf
    (truncf .bf16 x Facts₀.bitsLt_bf16_f32) (truncf .bf16 w Facts₀.bitsLt_bf16_f32) p q

/-- The body's product is the product. -/
theorem product_eq (x : Vec Ideal S10000x64 .f32) (w : Vec Ideal S64x64 .f32) :
    k1_pay1 x w = dense (M := 10000) (K := 64) (N := 64) x w := by
  funext j
  obtain ⟨p, q, rfl⟩ : ∃ (p : Fin 10000) (q : Fin 64), j = ix2 p q := ⟨j 0, j 1, eq_ix2 j⟩
  exact product_apply x w p q

/-- The printed index maps over the ten points: the left operand's block moves with the result's block along the
    rows, nothing moves along the columns, and the weights' block never moves. -/
theorem index_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every one of the ten row blocks is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- The left operand's block at point `t`, entry `y`, is the array at row `10000 · (block index) + y₀`, column `y₁`. -/
theorem rows_read (c : Dev nD) (t : Fin cfg1.N) (y : S10000x64.Idx) (i : S100000x64.Idx)
    (h0 : (i 0).val = win1_2.index t (0 : Fin 2) * 10000 + (y 0).val) (h1 : (i 1).val = (y 1).val) :
    (iblk1 V c 0 t : Vec Ideal S10000x64 .f32) y = (V c main_v10 : S100000x64.Idx → Elt Ideal .f32) i := by
  obtain ⟨e0, e1, -⟩ := index_facts t
  unfold iblk1
  rw [View.read_apply]
  show V c main_v10 _ = V c main_v10 _
  refine congrArg (V c main_v10) (funext fun a => Fin.ext ?_)
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The weights' block at every point is the whole weight matrix. -/
theorem weights_read (c : Dev nD) (t : Fin cfg1.N) (y : S64x64.Idx) (i : S64x64.Idx)
    (h0 : (i 0).val = (y 0).val) (h1 : (i 1).val = (y 1).val) :
    (iblk1 V c 1 t : Vec Ideal S64x64 .f32) y = (V c main_arg4 : S64x64.Idx → Elt Ideal .f32) i := by
  obtain ⟨-, -, e2, e3, -⟩ := index_facts t
  unfold iblk1
  rw [View.read_apply]
  show V c main_arg4 _ = V c main_arg4 _
  refine congrArg (V c main_arg4) (funext fun a => Fin.ext ?_)
  match a with
  | ⟨0, _⟩ => show win1_1.index t (0 : Fin 2) * 64 + 1 * (y 0).val = (i 0).val; rw [e2, h0]; omega
  | ⟨1, _⟩ => show win1_1.index t (1 : Fin 2) * 64 + 1 * (y 1).val = (i 1).val; rw [e3, h1]; omega

/-- The product of the block of rows is the block of rows of the product. -/
theorem block_product (c : Dev nD) (t : Fin cfg1.N) :
    dense (M := 10000) (K := 64) (N := 64) (iblk1 V c 0 t : Vec Ideal S10000x64 .f32) (iblk1 V c 1 t : Vec Ideal S64x64 .f32)
      = ((cfg1.win 2).blk t).view.read (Elt Ideal)
          (dense (M := 100000) (K := 64) (N := 64) (V c main_v10) (V c main_arg4)) := by
  obtain ⟨-, -, -, -, e4⟩ := index_facts t
  funext j
  rw [View.read_apply]
  unfold dense
  refine Finset.sum_congr rfl fun k _ => ?_
  refine congrArg₂ (· * ·) (rows_read V c t _ _ ?_ ?_) (weights_read V c t _ _ ?_ ?_)
  · show win1_2.index t (0 : Fin 2) * 10000 + 1 * (j 0).val = win1_2.index t (0 : Fin 2) * 10000 + (j 0).val; omega
  · rfl
  · rfl
  · show win1_2.index t (1 : Fin 2) * 64 + 1 * (j 1).val = (j 1).val; rw [e4]; omega

/-- What point `t` writes back is block `t` of the whole product. -/
theorem flushed_eq (c : Dev nD) (t : Fin cfg1.N) :
    (dat1 (F := Ideal) V c).flushed 2 t = ((cfg1.win 2).blk t).view.read (Elt Ideal)
      (dense (M := 100000) (K := 64) (N := 64) (V c main_v10) (V c main_arg4)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64x64) zero_offsets]
  rw [product_eq (iblk1 V c 0 t) (iblk1 V c 1 t)]
  exact block_product V c t

/-- An index of the result array is in point `t`'s block iff each coordinate is in the block's range. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v11).slice (win1_2.rect t)).set ↔ _
  rw [View.set_slice_whole, Rect.mem_set_unit]
  exact Iff.rfl

/-- The ten blocks tile the result array: row `r` is in block `r / 10000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the launch the result array holds the whole product of the arrays the launch found. -/
theorem array_eq (c : Dev nD) :
    (dat1 (F := Ideal) V c).arrAt 2 cfg1.N = dense (M := 100000) (K := 64) (N := 64) (V c main_v10) (V c main_arg4) :=
  (dat1 (F := Ideal) V c).arrAt_eq_of_cover 2 _ (fun t _ => flushed_eq V c t) covered

end Cert.KernelIdeal.Layer1

end
-- ==== Proof.Layer2.lean ====
/-
  The third dense layer: the second layer's aggregated features times the third weight matrix.

  The launch walks ten blocks of 10000 rows. At block `t` the body multiplies rows `10000 t … 10000 t + 9999` of the aggregated features
  by the whole weight matrix (the narrowing of both operands to bf16 is the identity on extended reals, the
  cast of the block to its own shape is the identity, and the matrix unit accumulates into zero), and writes the
  product back as the same rows of the result. Entry `(r, q)` of a product reads row `r` of the left operand only,
  so the block of rows of the product is the product of the block of rows; the ten blocks tile the 100000 rows;
  hence the result array ends holding the whole product `dense h w`, a sum over 64 terms per entry.
-/
import proofs.«122634_j76922864272070_1_alg».proof.Proof.Gen.KernelIdeal.Frame
import proofs.«122634_j76922864272070_1_alg».proof.Proof.LibDenseBlock
import proofs.«122634_j76922864272070_1_alg».proof.Proof.RowMath
import Idealize.ShloMosaic.Lib.Pipeline.Value

noncomputable section

namespace Cert.KernelIdeal.Layer2

open Cert.KernelIdeal Cert.KernelIdeal.Gen Cert.RowMath
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of the body's product of a block of rows with the weights. -/
theorem product_apply (x : Vec Ideal S10000x64 .f32) (w : Vec Ideal S64x40 .f32) (p : Fin 10000) (q : Fin 40) :
    k2_pay1 x w (ix2 p q) = ∑ k : Fin 64, x (ix2 p k) * w (ix2 k q) := by
  unfold k2_pay1
  simp only [shapeCast_self]
  exact DenseBlock.matmul_zero_apply Facts₀.dot_S10000x64_S64x40_S10000x40_1_0_0_1_n_n_wf
    (truncf .bf16 x Facts₀.bitsLt_bf16_f32) (truncf .bf16 w Facts₀.bitsLt_bf16_f32) p q

/-- The body's product is the product. -/
theorem product_eq (x : Vec Ideal S10000x64 .f32) (w : Vec Ideal S64x40 .f32) :
    k2_pay1 x w = dense (M := 10000) (K := 64) (N := 40) x w := by
  funext j
  obtain ⟨p, q, rfl⟩ : ∃ (p : Fin 10000) (q : Fin 40), j = ix2 p q := ⟨j 0, j 1, eq_ix2 j⟩
  exact product_apply x w p q

/-- The printed index maps over the ten points: the left operand's block moves with the result's block along the
    rows, nothing moves along the columns, and the weights' block never moves. -/
theorem index_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every one of the ten row blocks is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- The left operand's block at point `t`, entry `y`, is the array at row `10000 · (block index) + y₀`, column `y₁`. -/
theorem rows_read (c : Dev nD) (t : Fin cfg2.N) (y : S10000x64.Idx) (i : S100000x64.Idx)
    (h0 : (i 0).val = win2_2.index t (0 : Fin 2) * 10000 + (y 0).val) (h1 : (i 1).val = (y 1).val) :
    (iblk2 V c 0 t : Vec Ideal S10000x64 .f32) y = (V c main_v21 : S100000x64.Idx → Elt Ideal .f32) i := by
  obtain ⟨e0, e1, -⟩ := index_facts t
  unfold iblk2
  rw [View.read_apply]
  show V c main_v21 _ = V c main_v21 _
  refine congrArg (V c main_v21) (funext fun a => Fin.ext ?_)
  match a with
  | ⟨0, _⟩ => show win2_0.index t (0 : Fin 2) * 10000 + 1 * (y 0).val = (i 0).val; rw [e0, h0]; omega
  | ⟨1, _⟩ => show win2_0.index t (1 : Fin 2) * 64 + 1 * (y 1).val = (i 1).val; rw [e1, h1]; omega

/-- The weights' block at every point is the whole weight matrix. -/
theorem weights_read (c : Dev nD) (t : Fin cfg2.N) (y : S64x40.Idx) (i : S64x40.Idx)
    (h0 : (i 0).val = (y 0).val) (h1 : (i 1).val = (y 1).val) :
    (iblk2 V c 1 t : Vec Ideal S64x40 .f32) y = (V c main_arg5 : S64x40.Idx → Elt Ideal .f32) i := by
  obtain ⟨-, -, e2, e3, -⟩ := index_facts t
  unfold iblk2
  rw [View.read_apply]
  show V c main_arg5 _ = V c main_arg5 _
  refine congrArg (V c main_arg5) (funext fun a => Fin.ext ?_)
  match a with
  | ⟨0, _⟩ => show win2_1.index t (0 : Fin 2) * 64 + 1 * (y 0).val = (i 0).val; rw [e2, h0]; omega
  | ⟨1, _⟩ => show win2_1.index t (1 : Fin 2) * 40 + 1 * (y 1).val = (i 1).val; rw [e3, h1]; omega

/-- The product of the block of rows is the block of rows of the product. -/
theorem block_product (c : Dev nD) (t : Fin cfg2.N) :
    dense (M := 10000) (K := 64) (N := 40) (iblk2 V c 0 t : Vec Ideal S10000x64 .f32) (iblk2 V c 1 t : Vec Ideal S64x40 .f32)
      = ((cfg2.win 2).blk t).view.read (Elt Ideal)
          (dense (M := 100000) (K := 64) (N := 40) (V c main_v21) (V c main_arg5)) := by
  obtain ⟨-, -, -, -, e4⟩ := index_facts t
  funext j
  rw [View.read_apply]
  unfold dense
  refine Finset.sum_congr rfl fun k _ => ?_
  refine congrArg₂ (· * ·) (rows_read V c t _ _ ?_ ?_) (weights_read V c t _ _ ?_ ?_)
  · show win2_2.index t (0 : Fin 2) * 10000 + 1 * (j 0).val = win2_2.index t (0 : Fin 2) * 10000 + (j 0).val; omega
  · rfl
  · rfl
  · show win2_2.index t (1 : Fin 2) * 40 + 1 * (j 1).val = (j 1).val; rw [e4]; omega

/-- What point `t` writes back is block `t` of the whole product. -/
theorem flushed_eq (c : Dev nD) (t : Fin cfg2.N) :
    (dat2 (F := Ideal) V c).flushed 2 t = ((cfg2.win 2).blk t).view.read (Elt Ideal)
      (dense (M := 100000) (K := 64) (N := 40) (V c main_v21) (V c main_arg5)) := by
  show (cfg2.win 2).cut (grid2.coords t) ((dat2 V c).after 2 t) = _
  rw [after2_2]
  unfold out2_2
  rw [View.canon_unit_zero zero_offsets]
  simp only [View.ld_unit_zero (S := S10000x64) zero_offsets, View.ld_unit_zero (S := S64x40) zero_offsets]
  rw [product_eq (iblk2 V c 0 t) (iblk2 V c 1 t)]
  exact block_product V c t

/-- An index of the result array is in point `t`'s block iff each coordinate is in the block's range. -/
theorem mem_block (t : Fin cfg2.N) (i : S100000x40.Idx) :
    i ∈ ((cfg2.win 2).blk t).view.set ↔ ∀ a : Fin 2, win2_2.index t a * S10000x40.size a ≤ (i a).val
      ∧ (i a).val < win2_2.index t a * S10000x40.size a + S10000x40.size a := by
  show i ∈ ((View.whole main_v22).slice (win2_2.rect t)).set ↔ _
  rw [View.set_slice_whole, Rect.mem_set_unit]
  exact Iff.rfl

/-- The ten blocks tile the result array: row `r` is in block `r / 10000`. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-- After the launch the result array holds the whole product of the arrays the launch found. -/
theorem array_eq (c : Dev nD) :
    (dat2 (F := Ideal) V c).arrAt 2 cfg2.N = dense (M := 100000) (K := 64) (N := 40) (V c main_v21) (V c main_arg5) :=
  (dat2 (F := Ideal) V c).arrAt_eq_of_cover 2 _ (fun t _ => flushed_eq V c t) covered

end Cert.KernelIdeal.Layer2

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.SoftmaxRows.lean ====
/-
  The last launch: the log-softmax of every node's 40 scores.

  The launch walks ten blocks of 10000 rows. For each row of its block the body takes the largest entry as a fold of
  `max` from -∞ over the 40 lanes, keeps it as a column and broadcasts it back over the row, subtracts it,
  exponentiates, sums the 40 lanes from zero, takes the logarithm, broadcasts that back the same way and subtracts
  it: entry `(p, q)` is `(x (p, q) - M p) - log (Σ j, exp (x (p, j) - M p))`. Every entry reads its own row only,
  so the log-softmax of a block of rows is the block of rows of the log-softmax; the ten blocks tile the 100000
  rows; hence the result array ends holding `logSoftmaxRows` of the scores the launch found.
-/
import proofs.«122634_j76922864272070_1_alg».proof.Proof.Gen.KernelIdeal.Frame
import proofs.«122634_j76922864272070_1_alg».proof.Proof.LibColumn
import proofs.«122634_j76922864272070_1_alg».proof.Proof.RowMath
import Idealize.ShloMosaic.Lib.Pipeline.Value
import Idealize.ShloMosaic.PureOps.Ideal.Laws

noncomputable section

namespace Cert.KernelIdeal.Softmax

open Cert.KernelIdeal Cert.KernelIdeal.Gen Cert.RowMath
open Idealize.ShloMosaic Idealize.ShloMosaic.TcCoe Idealize.ShloMosaic.ValueIdx Idealize.ShloMosaic.Column Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Row `p` with the lane `k` put back is entry `(p, k)`. -/
theorem lane (p : Fin 10000) (k : Fin 40) : Facts₀.reduces_S10000x40_S10000.lift (ix1 p) k = ix2 p k := by
  funext a
  apply Fin.ext
  match a with
  | ⟨0, _⟩ => rfl
  | ⟨1, _⟩ => rfl

/-- A per-row value kept as a column and broadcast back over the row reads, at `(p, q)`, the value of row `p`. -/
theorem column_back {α : Type} (v : S10000.Idx → α) (p : Fin 10000) (q : Fin 40) :
    broadcastTo S10000x40 (shapeCast S10000x1 v Facts₀.shapeCasts_S10000_S10000x1) Facts₀.broadcasts_S10000x1_S10000x40 (ix2 p q)
      = v (ix1 p) :=
  (broadcastTo_a1_ab_apply _ _ p q).trans (shapeCast_a_a1_apply _ _ p 0)

/-- The same with the logarithm taken on the column. -/
theorem column_log_back (v : FVec Ideal S10000 .f32) (p : Fin 10000) (q : Fin 40) :
    broadcastTo S10000x40 (log (shapeCast S10000x1 v Facts₀.shapeCasts_S10000_S10000x1)) Facts₀.broadcasts_S10000x1_S10000x40 (ix2 p q)
      = Ideal.log (v (ix1 p)) :=
  (broadcastTo_a1_ab_apply _ _ p q).trans (congrArg Ideal.log (shapeCast_a_a1_apply _ _ p 0))

/-- The lane maximum of row `p`: the fold of `max` from the starting value over the row's 40 entries. -/
theorem lane_max (x : FVec Ideal S10000x40 .f32) (p : Fin 10000) :
    multiReduction .maximumf [1] S10000 x 0xFF800000#32 Facts₀.reduces_S10000x40_S10000 (.inl rfl) rfl (ix1 p)
      = rowMax start x p := by
  refine (Ideal.multiReduction_maximumf_single x 0xFF800000#32 Facts₀.reduces_S10000x40_S10000 (.inl rfl) rfl (ix1 p)).trans ?_
  unfold rowMax
  exact congrArg (fun f : Fin 40 → EReal => (Finset.univ : Finset (Fin 40)).fold max start f)
    (funext fun k => congrArg x (lane p k))

/-- The lane sum of row `p`, from zero: the sum of the row's 40 entries. -/
theorem lane_sum (y : FVec Ideal S10000x40 .f32) (p : Fin 10000) :
    multiReduction .add [1] S10000 y 0x00000000#32 Facts₀.reduces_S10000x40_S10000 (.inl rfl) rfl (ix1 p)
      = ∑ j : Fin 40, y (ix2 p j) := by
  refine (Ideal.multiReduction_add_single y 0x00000000#32 Facts₀.reduces_S10000x40_S10000 (.inl rfl) rfl (ix1 p)).trans ?_
  exact Finset.sum_congr rfl fun k _ => congrArg y (lane p k)

/-- Entry `(p, q)` of what the body stores. -/
theorem body_apply (x : FVec Ideal S10000x40 .f32) (p : Fin 10000) (q : Fin 40) :
    k3_pay1 x (ix2 p q) = logSoftmaxRows (M := 10000) (N := 40) start x (ix2 p q) := by
  unfold k3_pay1
  simp only [shapeCast_self]
  rw [logSoftmaxRows_apply]
  have hmax : ∀ j : Fin 40,
      broadcastTo S10000x40 (shapeCast S10000x1 (multiReduction .maximumf [1] S10000 x 0xFF800000#32
        Facts₀.reduces_S10000x40_S10000 (.inl rfl) rfl) Facts₀.shapeCasts_S10000_S10000x1)
        Facts₀.broadcasts_S10000x1_S10000x40 (ix2 p j) = rowMax start x p :=
    fun j => (column_back _ p j).trans (lane_max x p)
  refine congrArg₂ (fun u v : EReal => u - v) (congrArg (fun z : EReal => x (ix2 p q) - z) (hmax q)) ?_
  refine (column_log_back _ p q).trans (congrArg Ideal.log ?_)
  refine (lane_sum _ p).trans (Finset.sum_congr rfl fun j _ => ?_)
  exact congrArg (fun z : EReal => Ideal.exp (x (ix2 p j) - z)) (hmax j)

/-- The body's store is the log-softmax of the block it loaded. -/
theorem body_eq (x : FVec Ideal S10000x40 .f32) : k3_pay1 x = logSoftmaxRows (M := 10000) (N := 40) start x := by
  funext j
  obtain ⟨p, q, rfl⟩ : ∃ (p : Fin 10000) (q : Fin 40), j = ix2 p q := ⟨j 0, j 1, eq_ix2 j⟩
  exact body_apply x p q

/-- The printed index maps over the ten points: the input's block moves with the output's along the rows, and
    nothing moves along the columns. -/
theorem index_facts : ∀ t : Fin cfg3.N,
    win3_0.index t (0 : Fin 2) = win3_1.index t (0 : Fin 2) ∧ win3_0.index t (1 : Fin 2) = 0
    ∧ win3_1.index t (1 : Fin 2) = 0 :=
  (by decide +kernel : ∀ t : Fin grid3.N, _)

/-- Every one of the ten row blocks is some point's. -/
theorem index_onto : ∀ q0 : Fin 10, ∃ t : Fin cfg3.N, win3_1.index t = ![q0.val, 0] :=
  (by decide +kernel : ∀ q0 : Fin 10, ∃ t : Fin grid3.N, win3_1.index t = ![q0.val, 0])

/-- The input's block at point `t`, entry `y`, is the scores at row `10000 · (block index) + y₀`, column `y₁`. -/
theorem rows_read (c : Dev nD) (t : Fin cfg3.N) (y : S10000x40.Idx) (i : S100000x40.Idx)
    (h0 : (i 0).val = win3_1.index t (0 : Fin 2) * 10000 + (y 0).val) (h1 : (i 1).val = (y 1).val) :
    (iblk3 V c 0 t : Vec Ideal S10000x40 .f32) y = (V c main_v32 : S100000x40.Idx → Elt Ideal .f32) i := by
  obtain ⟨e0, e1, -⟩ := index_facts t
  unfold iblk3
  rw [View.read_apply]
  show V c main_v32 _ = V c main_v32 _
  refine congrArg (V c main_v32) (funext fun a => Fin.ext ?_)
  match a with
  | ⟨0, _⟩ => show win3_0.index t (0 : Fin 2) * 10000 + 1 * (y 0).val = (i 0).val; rw [e0, h0]; omega
  | ⟨1, _⟩ => show win3_0.index t (1 : Fin 2) * 40 + 1 * (y 1).val = (i 1).val; rw [e1, h1]; omega

/-- The log-softmax of the block of rows is the block of rows of the log-softmax. -/
theorem block_softmax (c : Dev nD) (t : Fin cfg3.N) :
    logSoftmaxRows (M := 10000) (N := 40) start (iblk3 V c 0 t : Vec Ideal S10000x40 .f32)
      = ((cfg3.win 1).blk t).view.read (Elt Ideal) (logSoftmaxRows (M := 100000) (N := 40) start (V c main_v32)) := by
  obtain ⟨-, -, e2⟩ := index_facts t
  funext j
  rw [View.read_apply]
  refine logSoftmaxRows_congr start _ _ j _ (fun k => rows_read V c t _ _ ?_ ?_) (rows_read V c t _ _ ?_ ?_)
  · show win3_1.index t (0 : Fin 2) * 10000 + 1 * (j 0).val = win3_1.index t (0 : Fin 2) * 10000 + (j 0).val; omega
  · rfl
  · show win3_1.index t (0 : Fin 2) * 10000 + 1 * (j 0).val = win3_1.index t (0 : Fin 2) * 10000 + (j 0).val; omega
  · show win3_1.index t (1 : Fin 2) * 40 + 1 * (j 1).val = (j 1).val; rw [e2]; omega

/-- What point `t` writes back is block `t` of the log-softmax of the scores. -/
theorem flushed_eq (c : Dev nD) (t : Fin cfg3.N) :
    (dat3 (F := Ideal) V c).flushed 1 t = ((cfg3.win 1).blk t).view.read (Elt Ideal)
      (logSoftmaxRows (M := 100000) (N := 40) start (V c main_v32)) := by
  show (cfg3.win 1).cut (grid3.coords t) ((dat3 V c).after 1 t) = _
  rw [after3_1]
  unfold out3_1
  rw [View.canon_unit_zero zero_offsets]
  simp only [View.ld_unit_zero (S := S10000x40) zero_offsets]
  rw [body_eq (iblk3 V c 0 t)]
  exact block_softmax V c t

/-- An index of the result array is in point `t`'s block iff each coordinate is in the block's range. -/
theorem mem_block (t : Fin cfg3.N) (i : S100000x40.Idx) :
    i ∈ ((cfg3.win 1).blk t).view.set ↔ ∀ a : Fin 2, win3_1.index t a * S10000x40.size a ≤ (i a).val
      ∧ (i a).val < win3_1.index t a * S10000x40.size a + S10000x40.size a := by
  show i ∈ ((View.whole main_v33).slice (win3_1.rect t)).set ↔ _
  rw [View.set_slice_whole, Rect.mem_set_unit]
  exact Iff.rfl

/-- The ten blocks tile the result array: row `r` is in block `r / 10000`. -/
theorem covered (i : S100000x40.Idx) :
    ∃ t : Fin cfg3.N, (cfg3.win 1).flush t = true ∧ i ∈ ((cfg3.win 1).blk t).view.set := by
  have hi0 : (i 0).val < 100000 := (i 0).isLt
  have hi1 : (i 1).val < 40 := (i 1).isLt
  obtain ⟨t, ht⟩ := index_onto ⟨(i 0).val / 10000, by omega⟩
  have q0 : win3_1.index t (0 : Fin 2) = (i 0).val / 10000 := congrFun ht 0
  have q1 : win3_1.index t (1 : Fin 2) = 0 := congrFun ht 1
  refine ⟨t, flush3_1 t, ?_⟩
  rw [mem_block]
  intro a
  match a with
  | ⟨0, _⟩ => show win3_1.index t (0 : Fin 2) * 10000 ≤ (i 0).val ∧ (i 0).val < win3_1.index t (0 : Fin 2) * 10000 + 10000; omega
  | ⟨1, _⟩ => show win3_1.index t (1 : Fin 2) * 40 ≤ (i 1).val ∧ (i 1).val < win3_1.index t (1 : Fin 2) * 40 + 40; omega

/-- After the launch the result array holds the log-softmax of the scores the launch found. -/
theorem array_eq (c : Dev nD) :
    (dat3 (F := Ideal) V c).arrAt 1 cfg3.N = logSoftmaxRows (M := 100000) (N := 40) start (V c main_v32) :=
  (dat3 (F := Ideal) V c).arrAt_eq_of_cover 1 _ (fun t _ => flushed_eq V c t) covered

end Cert.KernelIdeal.Softmax

end
-- ==== Proof.Net.lean ====
/-
  The whole network as one function of its six arguments.

  `aggregate64 src dst h` (and `aggregate40`, the same at 40 columns) is one layer's sparse step on an
  `[100000, d]` array `h`: an edge's source index is wrapped (a negative index has 100000 added), the rows of `h` the
  sources name are gathered, one per edge, and each gathered row is added into the row its edge's target names, starting
  from zero. Both programs perform this step with the same host operations, so it is carried here as ONE function
  and never opened: nothing is claimed about which rows an out-of-range index reads or drops, only that the two
  programs do the same.

  `network` is three layers of (dense product, sparse step) and the row-wise log-softmax:
  `logSoftmaxRows (agg (agg (agg (x · W1)) · W2) · W3)`.
-/
import proofs.«122634_j76922864272070_1_alg».proof.KernelIdeal
import proofs.«122634_j76922864272070_1_alg».proof.Proof.Gen.KernelIdeal
import proofs.«122634_j76922864272070_1_alg».proof.Proof.RowMath

noncomputable section

namespace Cert.KernelIdeal.Net

open Cert.KernelIdeal Cert.RowMath Idealize.ShloMosaic

/-- One layer's sparse step at 64 columns: gather the rows the (wrapped) sources name, add each into its target's row. -/
def aggregate64 (src dst : (⟨S1600000, .i32⟩ : BufTy).Contents (Elt Ideal))
    (h : (⟨S100000x64, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] Facts₀.bcast_S_S100000x64 (constant (F := Ideal) S_ .f32 0x00000000#32))
    (broadcastInDim S1600000x1 ![0] Facts₀.bcast_S1600000_S1600000x1_0 dst)
    (Host.gather gather_S100000x64_S1600000x1_S1600000x64_1_0_n_n_0_1_164 h
      (broadcastInDim S1600000x1 ![0] Facts₀.bcast_S1600000_S1600000x1_0
        (select (cmpi .slt src (broadcastInDim S1600000 ![] Facts₀.bcast_S_S1600000 (constantI S_ 32 0#32)))
          (addi src (broadcastInDim S1600000 ![] Facts₀.bcast_S_S1600000 (constantI S_ 32 100000#32))) src)))

/-- The same step at 40 columns. -/
def aggregate40 (src dst : (⟨S1600000, .i32⟩ : BufTy).Contents (Elt Ideal))
    (h : (⟨S100000x40, .f32⟩ : BufTy).Contents (Elt Ideal)) : (⟨S100000x40, .f32⟩ : BufTy).Contents (Elt Ideal) :=
  Host.scatterAdd scatter_S100000x40_S1600000x1_S1600000x40_1_0_0_1
    (broadcastInDim S100000x40 ![] Facts₀.bcast_S_S100000x40 (constant (F := Ideal) S_ .f32 0x00000000#32))
    (broadcastInDim S1600000x1 ![0] Facts₀.bcast_S1600000_S1600000x1_0 dst)
    (Host.gather gather_S100000x40_S1600000x1_S1600000x40_1_0_n_n_0_1_140 h
      (broadcastInDim S1600000x1 ![0] Facts₀.bcast_S1600000_S1600000x1_0
        (select (cmpi .slt src (broadcastInDim S1600000 ![] Facts₀.bcast_S_S1600000 (constantI S_ 32 0#32)))
          (addi src (broadcastInDim S1600000 ![] Facts₀.bcast_S_S1600000 (constantI S_ 32 100000#32))) src)))

/-- Three layers and the log-softmax. -/
def network (x : (⟨S100000x128, .f32⟩ : BufTy).Contents (Elt Ideal)) (src dst : (⟨S1600000, .i32⟩ : BufTy).Contents (Elt Ideal))
    (w1 : (⟨S128x64, .f32⟩ : BufTy).Contents (Elt Ideal)) (w2 : (⟨S64x64, .f32⟩ : BufTy).Contents (Elt Ideal))
    (w3 : (⟨S64x40, .f32⟩ : BufTy).Contents (Elt Ideal)) : (⟨S100000x40, .f32⟩ : BufTy).Contents (Elt Ideal) :=
  logSoftmaxRows (M := 100000) (N := 40) start
    (aggregate40 src dst (dense (M := 100000) (K := 64) (N := 40)
      (aggregate64 src dst (dense (M := 100000) (K := 64) (N := 64)
        (aggregate64 src dst (dense (M := 100000) (K := 128) (N := 64) x w1)) w2)) w3))

end Cert.KernelIdeal.Net

end
-- ==== Proof.KernelValue.lean ====
/-
  The kernel's result as the network of its arguments.

  The buffer contents at the segment boundaries are read one boundary at a time, from the launch memory on. A
  kernel launch leaves every buffer that is not one of its arrays as it found it, and its result array at the whole
  product (or the whole log-softmax) of the arrays it found; a stretch of host operations leaves every buffer none of
  its operations writes as it found it, and its last result at the sparse step of the buffers it read. The edge lists
  and the weight matrices are never written, so each segment finds them as launched. After the seventh segment the
  result buffer holds `network` of the six arguments.
-/
import proofs.«122634_j76922864272070_1_alg».proof.Proof.Gen.KernelIdeal.Frame
import proofs.«122634_j76922864272070_1_alg».proof.Proof.Layer0
import proofs.«122634_j76922864272070_1_alg».proof.Proof.Layer1
import proofs.«122634_j76922864272070_1_alg».proof.Proof.Layer2
import proofs.«122634_j76922864272070_1_alg».proof.Proof.SoftmaxRows
import proofs.«122634_j76922864272070_1_alg».proof.Proof.Net
import Idealize.ShloMosaic.Lib.StableHlo.Run

set_option maxRecDepth 16384

noncomputable section

namespace Cert.KernelIdeal.Whole

open Cert.KernelIdeal Cert.KernelIdeal.Gen Cert.KernelIdeal.Net Cert.RowMath
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- A stretch of host operations leaves alone a buffer that none of its operations writes. -/
macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first launch -/

theorem b1_arg1 : W1 m ρ c (Proc.devRef .tc main_arg1) = m ((c : Thread nD τ).loc main_arg1) :=
  (W1_of_ne m ρ c main_arg1 (by decide)).trans rfl
theorem b1_arg2 : W1 m ρ c (Proc.devRef .tc main_arg2) = m ((c : Thread nD τ).loc main_arg2) :=
  (W1_of_ne m ρ c main_arg2 (by decide)).trans rfl
theorem b1_arg4 : W1 m ρ c (Proc.devRef .tc main_arg4) = m ((c : Thread nD τ).loc main_arg4) :=
  (W1_of_ne m ρ c main_arg4 (by decide)).trans rfl
theorem b1_arg5 : W1 m ρ c (Proc.devRef .tc main_arg5) = m ((c : Thread nD τ).loc main_arg5) :=
  (W1_of_ne m ρ c main_arg5 (by decide)).trans rfl

theorem b1_v0 : W1 m ρ c (Proc.devRef .tc main_v0) = dense (M := 100000) (K := 128) (N := 64) (m ((c : Thread nD τ).loc main_arg0)) (m ((c : Thread nD τ).loc main_arg3)) :=
  (W1_arr m ρ c 2).trans (Layer0.array_eq (V0 m ρ) c)

/-! ## After the first sparse step -/

theorem b2_arg1 : W2 m ρ c (Proc.devRef .tc main_arg1) = m ((c : Thread nD τ).loc main_arg1) :=
  (show StableHlo.after hostOps1 (W1 m ρ c) (Proc.devRef .tc main_arg1) = W1 m ρ c (Proc.devRef .tc main_arg1) from by host_keeps hostOps1).trans (b1_arg1 m ρ c)
theorem b2_arg2 : W2 m ρ c (Proc.devRef .tc main_arg2) = m ((c : Thread nD τ).loc main_arg2) :=
  (show StableHlo.after hostOps1 (W1 m ρ c) (Proc.devRef .tc main_arg2) = W1 m ρ c (Proc.devRef .tc main_arg2) from by host_keeps hostOps1).trans (b1_arg2 m ρ c)
theorem b2_arg4 : W2 m ρ c (Proc.devRef .tc main_arg4) = m ((c : Thread nD τ).loc main_arg4) :=
  (show StableHlo.after hostOps1 (W1 m ρ c) (Proc.devRef .tc main_arg4) = W1 m ρ c (Proc.devRef .tc main_arg4) from by host_keeps hostOps1).trans (b1_arg4 m ρ c)
theorem b2_arg5 : W2 m ρ c (Proc.devRef .tc main_arg5) = m ((c : Thread nD τ).loc main_arg5) :=
  (show StableHlo.after hostOps1 (W1 m ρ c) (Proc.devRef .tc main_arg5) = W1 m ρ c (Proc.devRef .tc main_arg5) from by host_keeps hostOps1).trans (b1_arg5 m ρ c)

theorem b2_v10 : W2 m ρ c (Proc.devRef .tc main_v10) = aggregate64 (m ((c : Thread nD τ).loc main_arg1)) (m ((c : Thread nD τ).loc main_arg2)) (dense (M := 100000) (K := 128) (N := 64) (m ((c : Thread nD τ).loc main_arg0)) (m ((c : Thread nD τ).loc main_arg3))) := by
  show StableHlo.after hostOps1 (W1 m ρ c) (Proc.devRef .tc main_v10) = _
  after_results
  rw [b1_v0 m ρ c, b1_arg1 m ρ c, b1_arg2 m ρ c]
  rfl

/-! ## After the second launch -/

theorem b3_arg1 : W3 m ρ c (Proc.devRef .tc main_arg1) = m ((c : Thread nD τ).loc main_arg1) :=
  (W3_of_ne m ρ c main_arg1 (by decide)).trans (b2_arg1 m ρ c)
theorem b3_arg2 : W3 m ρ c (Proc.devRef .tc main_arg2) = m ((c : Thread nD τ).loc main_arg2) :=
  (W3_of_ne m ρ c main_arg2 (by decide)).trans (b2_arg2 m ρ c)
theorem b3_arg5 : W3 m ρ c (Proc.devRef .tc main_arg5) = m ((c : Thread nD τ).loc main_arg5) :=
  (W3_of_ne m ρ c main_arg5 (by decide)).trans (b2_arg5 m ρ c)

theorem b3_v11 : W3 m ρ c (Proc.devRef .tc main_v11) = dense (M := 100000) (K := 64) (N := 64) (aggregate64 (m ((c : Thread nD τ).loc main_arg1)) (m ((c : Thread nD τ).loc main_arg2)) (dense (M := 100000) (K := 128) (N := 64) (m ((c : Thread nD τ).loc main_arg0)) (m ((c : Thread nD τ).loc main_arg3)))) (m ((c : Thread nD τ).loc main_arg4)) :=
  (W3_arr m ρ c 2).trans ((Layer1.array_eq (V2 m ρ) c).trans
    (congrArg₂ (dense (M := 100000) (K := 64) (N := 64)) (b2_v10 m ρ c) (b2_arg4 m ρ c)))

/-! ## After the second sparse step -/

theorem b4_arg1 : W4 m ρ c (Proc.devRef .tc main_arg1) = m ((c : Thread nD τ).loc main_arg1) :=
  (show StableHlo.after hostOps2 (W3 m ρ c) (Proc.devRef .tc main_arg1) = W3 m ρ c (Proc.devRef .tc main_arg1) from by host_keeps hostOps2).trans (b3_arg1 m ρ c)
theorem b4_arg2 : W4 m ρ c (Proc.devRef .tc main_arg2) = m ((c : Thread nD τ).loc main_arg2) :=
  (show StableHlo.after hostOps2 (W3 m ρ c) (Proc.devRef .tc main_arg2) = W3 m ρ c (Proc.devRef .tc main_arg2) from by host_keeps hostOps2).trans (b3_arg2 m ρ c)
theorem b4_arg5 : W4 m ρ c (Proc.devRef .tc main_arg5) = m ((c : Thread nD τ).loc main_arg5) :=
  (show StableHlo.after hostOps2 (W3 m ρ c) (Proc.devRef .tc main_arg5) = W3 m ρ c (Proc.devRef .tc main_arg5) from by host_keeps hostOps2).trans (b3_arg5 m ρ c)

theorem b4_v21 : W4 m ρ c (Proc.devRef .tc main_v21) = aggregate64 (m ((c : Thread nD τ).loc main_arg1)) (m ((c : Thread nD τ).loc main_arg2)) (dense (M := 100000) (K := 64) (N := 64) (aggregate64 (m ((c : Thread nD τ).loc main_arg1)) (m ((c : Thread nD τ).loc main_arg2)) (dense (M := 100000) (K := 128) (N := 64) (m ((c : Thread nD τ).loc main_arg0)) (m ((c : Thread nD τ).loc main_arg3)))) (m ((c : Thread nD τ).loc main_arg4))) := by
  show StableHlo.after hostOps2 (W3 m ρ c) (Proc.devRef .tc main_v21) = _
  after_results
  rw [b3_v11 m ρ c, b3_arg1 m ρ c, b3_arg2 m ρ c]
  rfl

/-! ## After the third launch -/

theorem b5_arg1 : W5 m ρ c (Proc.devRef .tc main_arg1) = m ((c : Thread nD τ).loc main_arg1) :=
  (W5_of_ne m ρ c main_arg1 (by decide)).trans (b4_arg1 m ρ c)
theorem b5_arg2 : W5 m ρ c (Proc.devRef .tc main_arg2) = m ((c : Thread nD τ).loc main_arg2) :=
  (W5_of_ne m ρ c main_arg2 (by decide)).trans (b4_arg2 m ρ c)

theorem b5_v22 : W5 m ρ c (Proc.devRef .tc main_v22) = dense (M := 100000) (K := 64) (N := 40) (aggregate64 (m ((c : Thread nD τ).loc main_arg1)) (m ((c : Thread nD τ).loc main_arg2)) (dense (M := 100000) (K := 64) (N := 64) (aggregate64 (m ((c : Thread nD τ).loc main_arg1)) (m ((c : Thread nD τ).loc main_arg2)) (dense (M := 100000) (K := 128) (N := 64) (m ((c : Thread nD τ).loc main_arg0)) (m ((c : Thread nD τ).loc main_arg3)))) (m ((c : Thread nD τ).loc main_arg4)))) (m ((c : Thread nD τ).loc main_arg5)) :=
  (W5_arr m ρ c 2).trans ((Layer2.array_eq (V4 m ρ) c).trans
    (congrArg₂ (dense (M := 100000) (K := 64) (N := 40)) (b4_v21 m ρ c) (b4_arg5 m ρ c)))

/-! ## After the third sparse step -/

theorem b6_v32 : W6 m ρ c (Proc.devRef .tc main_v32) = aggregate40 (m ((c : Thread nD τ).loc main_arg1)) (m ((c : Thread nD τ).loc main_arg2)) (dense (M := 100000) (K := 64) (N := 40) (aggregate64 (m ((c : Thread nD τ).loc main_arg1)) (m ((c : Thread nD τ).loc main_arg2)) (dense (M := 100000) (K := 64) (N := 64) (aggregate64 (m ((c : Thread nD τ).loc main_arg1)) (m ((c : Thread nD τ).loc main_arg2)) (dense (M := 100000) (K := 128) (N := 64) (m ((c : Thread nD τ).loc main_arg0)) (m ((c : Thread nD τ).loc main_arg3)))) (m ((c : Thread nD τ).loc main_arg4)))) (m ((c : Thread nD τ).loc main_arg5))) := by
  show StableHlo.after hostOps3 (W5 m ρ c) (Proc.devRef .tc main_v32) = _
  after_results
  rw [b5_v22 m ρ c, b5_arg1 m ρ c, b5_arg2 m ρ c]
  rfl

/-! ## After the last launch -/

/-- The result buffer ends at the network of the six arguments. -/
theorem result_value : W7 m ρ c (Proc.devRef .tc main_v33)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 1).trans ((Softmax.array_eq (V6 m ρ) c).trans
    (congrArg (logSoftmaxRows (M := 100000) (N := 40) start) (b6_v32 m ρ c)))

end Cert.KernelIdeal.Whole

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«122634_j76922864272070_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.RefDense.lean ====
/-
  The reference's operations as mathematics: whole products, the sparse step, the log-softmax.

  Over the extended reals a whole `dot_general` is `dense` entry by entry (a finite sum has no order). The sparse step
  is, operation for operation and record for record, the one the kernel's program performs between its launches. The
  last ten operations are the row-wise log-softmax: the row maximum is a fold of `max` from -∞ (one more `max` with -∞
  changes nothing), kept as a column and broadcast back; the row sum of the exponentials starts from zero. Composed,
  the reference's operations are `network`.
-/
import proofs.«122634_j76922864272070_1_alg».proof.ReferenceIdeal
import proofs.«122634_j76922864272070_1_alg».proof.Proof.Gen.ReferenceIdeal
import proofs.«122634_j76922864272070_1_alg».proof.Proof.LibDenseHost
import proofs.«122634_j76922864272070_1_alg».proof.Proof.LibColumn
import proofs.«122634_j76922864272070_1_alg».proof.Proof.RowMath
import proofs.«122634_j76922864272070_1_alg».proof.Proof.Net
import Idealize.ShloMosaic.PureOps.Ideal.Laws

set_option maxRecDepth 16384

noncomputable section

namespace Cert.ReferenceIdeal.RefValue

open Cert.ReferenceIdeal Cert.RowMath
open Idealize.ShloMosaic Idealize.ShloMosaic.TcCoe Idealize.ShloMosaic.ValueIdx Idealize.ShloMosaic.Column
open Idealize.SL.Sem

/-! ## The dense steps -/

theorem dot1 (a : FVec Ideal S100000x128 .f32) (w : FVec Ideal S128x64 .f32) :
    Host.dotGeneral dot_S100000x128_S128x64_S100000x64_1_0_0_1_n_n none a w = dense (M := 100000) (K := 128) (N := 64) a w := by
  funext j
  obtain ⟨p, q, rfl⟩ : ∃ (p : Fin 100000) (q : Fin 64), j = ix2 p q := ⟨j 0, j 1, eq_ix2 j⟩
  exact DenseBlock.dotGeneral_apply_ix2 Facts₀.dot_S100000x128_S128x64_S100000x64_1_0_0_1_n_n_wf .single a w p q

theorem dot2 (a : FVec Ideal S100000x64 .f32) (w : FVec Ideal S64x64 .f32) :
    Host.dotGeneral dot_S100000x64_S64x64_S100000x64_1_0_0_1_n_n none a w = dense (M := 100000) (K := 64) (N := 64) a w := by
  funext j
  obtain ⟨p, q, rfl⟩ : ∃ (p : Fin 100000) (q : Fin 64), j = ix2 p q := ⟨j 0, j 1, eq_ix2 j⟩
  exact DenseBlock.dotGeneral_apply_ix2 Facts₀.dot_S100000x64_S64x64_S100000x64_1_0_0_1_n_n_wf .single a w p q

theorem dot3 (a : FVec Ideal S100000x64 .f32) (w : FVec Ideal S64x40 .f32) :
    Host.dotGeneral dot_S100000x64_S64x40_S100000x40_1_0_0_1_n_n none a w = dense (M := 100000) (K := 64) (N := 40) a w := by
  funext j
  obtain ⟨p, q, rfl⟩ : ∃ (p : Fin 100000) (q : Fin 40), j = ix2 p q := ⟨j 0, j 1, eq_ix2 j⟩
  exact DenseBlock.dotGeneral_apply_ix2 Facts₀.dot_S100000x64_S64x40_S100000x40_1_0_0_1_n_n_wf .single a w p q

/-! ## The sparse step: the kernel program's, record for record -/

/-- One layer's sparse step at 64 columns, as the reference spells it. -/
def aggregate64 (src dst : (⟨S1600000, .i32⟩ : BufTy).Contents (Elt Ideal))
    (h : (⟨S100000x64, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] Facts₀.bcast_S_S100000x64 (constant (F := Ideal) S_ .f32 0x00000000#32))
    (broadcastInDim S1600000x1 ![0] Facts₀.bcast_S1600000_S1600000x1_0 dst)
    (Host.gather gather_S100000x64_S1600000x1_S1600000x64_1_0_n_n_0_1_164 h
      (broadcastInDim S1600000x1 ![0] Facts₀.bcast_S1600000_S1600000x1_0
        (select (cmpi .slt src (broadcastInDim S1600000 ![] Facts₀.bcast_S_S1600000 (constantI S_ 32 0#32)))
          (addi src (broadcastInDim S1600000 ![] Facts₀.bcast_S_S1600000 (constantI S_ 32 100000#32))) src)))

/-- The same step at 40 columns. -/
def aggregate40 (src dst : (⟨S1600000, .i32⟩ : BufTy).Contents (Elt Ideal))
    (h : (⟨S100000x40, .f32⟩ : BufTy).Contents (Elt Ideal)) : (⟨S100000x40, .f32⟩ : BufTy).Contents (Elt Ideal) :=
  Host.scatterAdd scatter_S100000x40_S1600000x1_S1600000x40_1_0_0_1
    (broadcastInDim S100000x40 ![] Facts₀.bcast_S_S100000x40 (constant (F := Ideal) S_ .f32 0x00000000#32))
    (broadcastInDim S1600000x1 ![0] Facts₀.bcast_S1600000_S1600000x1_0 dst)
    (Host.gather gather_S100000x40_S1600000x1_S1600000x40_1_0_n_n_0_1_140 h
      (broadcastInDim S1600000x1 ![0] Facts₀.bcast_S1600000_S1600000x1_0
        (select (cmpi .slt src (broadcastInDim S1600000 ![] Facts₀.bcast_S_S1600000 (constantI S_ 32 0#32)))
          (addi src (broadcastInDim S1600000 ![] Facts₀.bcast_S_S1600000 (constantI S_ 32 100000#32))) src)))

theorem aggregate64_eq : aggregate64 = Cert.KernelIdeal.Net.aggregate64 := rfl
theorem aggregate40_eq : aggregate40 = Cert.KernelIdeal.Net.aggregate40 := rfl

/-! ## The last ten operations -/

/-- Axis 1 of a `[100000, 40]` array reduces to `[100000]`. -/
theorem rowReduces : S100000x40.Reduces [1] S100000 := by decide

/-- Row `p` with the lane `k` put back is entry `(p, k)`. -/
theorem lane (p : Fin 100000) (k : Fin 40) : rowReduces.lift (ix1 p) k = ix2 p k := by
  funext a
  apply Fin.ext
  match a with
  | ⟨0, _⟩ => rfl
  | ⟨1, _⟩ => rfl

/-- A per-row value kept as a column and broadcast back over the row. -/
def columnOf (r : FVec Ideal S100000 .f32) : FVec Ideal S100000x40 .f32 :=
  broadcastInDim S100000x40 ![0, 1] Facts₀.bcast_S100000x1_S100000x40_0_1
    (broadcastInDim S100000x1 ![0] Facts₀.bcast_S100000_S100000x1_0 r)

/-- Every entry of row `p` of the broadcast column is the value of row `p`. -/
theorem columnOf_apply (r : FVec Ideal S100000 .f32) (p : Fin 100000) (q : Fin 40) : columnOf r (ix2 p q) = r (ix1 p) := by
  unfold columnOf
  exact (broadcastInDim_a1_ab_apply _ _ p q).trans (broadcastInDim_a_a1_apply _ _ p 0)

/-- The same with the logarithm taken on the column. -/
def logColumnOf (r : FVec Ideal S100000 .f32) : FVec Ideal S100000x40 .f32 :=
  broadcastInDim S100000x40 ![0, 1] Facts₀.bcast_S100000x1_S100000x40_0_1
    (Host.log (broadcastInDim S100000x1 ![0] Facts₀.bcast_S100000_S100000x1_0 r))

theorem logColumnOf_apply (r : FVec Ideal S100000 .f32) (p : Fin 100000) (q : Fin 40) :
    logColumnOf r (ix2 p q) = Ideal.log (r (ix1 p)) := by
  unfold logColumnOf
  exact (broadcastInDim_a1_ab_apply _ _ p q).trans (congrArg Ideal.log (broadcastInDim_a_a1_apply _ _ p 0))

/-- The host's exponential at an index. -/
theorem hostExp_apply {s : Shape} (Y : FVec Ideal s .f32) (i : s.Idx) : Host.exp Y i = Ideal.exp (Y i) := rfl

/-- The host's maximum over row `p`: the fold of `max` from the starting value over the row's 40 entries. -/
theorem hostMax_apply (X : FVec Ideal S100000x40 .f32) (p : Fin 100000) :
    Host.reduce FloatOps.maximumf X (constant (F := Ideal) S_ .f32 0xFF800000#32)
        Facts₀.reducesTo_S100000x40_S100000_d1 Facts₀.h_S_ (ix1 p) = rowMax start X p := by
  refine (Host.reduce_eq_fold_single FloatOps.maximumf X _ Facts₀.reducesTo_S100000x40_S100000_d1 rowReduces
    Facts₀.h_S_ (ix1 p)).trans ?_
  unfold rowMax
  exact congrArg (fun f : Fin 40 → EReal => (Finset.univ : Finset (Fin 40)).fold max start f)
    (funext fun k => congrArg X (lane p k))

/-- The host's sum over row `p`, from zero: the sum of the row's 40 entries. -/
theorem hostSum_apply (Y : FVec Ideal S100000x40 .f32) (p : Fin 100000) :
    Host.reduceAdd Y (constant (F := Ideal) S_ .f32 0x00000000#32)
        Facts₀.reducesTo_S100000x40_S100000_d1 Facts₀.h_S_ (ix1 p) = ∑ j : Fin 40, Y (ix2 p j) := by
  show Ideal.hostReduceAdd Facts₀.reducesTo_S100000x40_S100000_d1 Y (Ideal.ofBits .f32 0x00000000#32) (ix1 p) = _
  rw [Ideal.hostReduceAdd_single _ rowReduces, Ideal.ofBits_zero_f32, zero_add]
  exact Finset.sum_congr rfl fun k _ => congrArg Y (lane p k)

/-- The row maxima as the reference takes them: the fold from -∞, maximised once more with -∞. -/
def rowMaxHost (X : FVec Ideal S100000x40 .f32) : FVec Ideal S100000 .f32 :=
  maximumf (broadcastInDim S100000 ![] Facts₀.bcast_S_S100000 (constant (F := Ideal) S_ .f32 0xFF800000#32))
    (Host.reduce FloatOps.maximumf X (constant (F := Ideal) S_ .f32 0xFF800000#32) Facts₀.reducesTo_S100000x40_S100000_d1 Facts₀.h_S_)

theorem rowMaxHost_apply (X : FVec Ideal S100000x40 .f32) (p : Fin 100000) : rowMaxHost X (ix1 p) = rowMax start X p := by
  unfold rowMaxHost
  rw [maximumf_apply, hostMax_apply X p, broadcastInDim_scalar_apply, constant_apply]
  exact max_rowMax start X p

/-- The reference's last ten operations, as a function of the scores. -/
def hostLogSoftmax (X : FVec Ideal S100000x40 .f32) : FVec Ideal S100000x40 .f32 :=
  subf (subf X (columnOf (rowMaxHost X)))
    (logColumnOf (Host.reduceAdd (Host.exp (subf X (columnOf (rowMaxHost X)))) (constant (F := Ideal) S_ .f32 0x00000000#32) Facts₀.reducesTo_S100000x40_S100000_d1 Facts₀.h_S_))

/-- The scores with their row's maximum taken off. -/
theorem shifted_apply (X : FVec Ideal S100000x40 .f32) (p : Fin 100000) (q : Fin 40) :
    subf X (columnOf (rowMaxHost X)) (ix2 p q) = X (ix2 p q) - rowMax start X p := by
  rw [subf_apply, columnOf_apply, rowMaxHost_apply]

/-- The last ten operations are the row-wise log-softmax. -/
theorem hostLogSoftmax_eq (X : FVec Ideal S100000x40 .f32) :
    hostLogSoftmax X = logSoftmaxRows (M := 100000) (N := 40) start X := by
  funext j
  obtain ⟨p, q, rfl⟩ : ∃ (p : Fin 100000) (q : Fin 40), j = ix2 p q := ⟨j 0, j 1, eq_ix2 j⟩
  unfold hostLogSoftmax
  rw [logSoftmaxRows_apply, subf_apply, shifted_apply, logColumnOf_apply, hostSum_apply]
  refine congrArg (fun z : EReal => X (ix2 p q) - rowMax start X p - Ideal.log z) (Finset.sum_congr rfl fun j _ => ?_)
  exact (hostExp_apply _ _).trans (congrArg Ideal.exp (shifted_apply X p j))

/-! ## The layers and the whole reference -/

/-- The first layer as the reference spells it: the whole product, then the sparse step. -/
def hostLayer1 (x : (⟨S100000x128, .f32⟩ : BufTy).Contents (Elt Ideal)) (src dst : (⟨S1600000, .i32⟩ : BufTy).Contents (Elt Ideal))
    (w : (⟨S128x64, .f32⟩ : BufTy).Contents (Elt Ideal)) : (⟨S100000x64, .f32⟩ : BufTy).Contents (Elt Ideal) :=
  aggregate64 src dst (Host.dotGeneral (F := Ideal) (φ₁ := .f32) (φ₂ := .f32) dot_S100000x128_S128x64_S100000x64_1_0_0_1_n_n none x w)

/-- The second layer. -/
def hostLayer2 (h : (⟨S100000x64, .f32⟩ : BufTy).Contents (Elt Ideal)) (src dst : (⟨S1600000, .i32⟩ : BufTy).Contents (Elt Ideal))
    (w : (⟨S64x64, .f32⟩ : BufTy).Contents (Elt Ideal)) : (⟨S100000x64, .f32⟩ : BufTy).Contents (Elt Ideal) :=
  aggregate64 src dst (Host.dotGeneral (F := Ideal) (φ₁ := .f32) (φ₂ := .f32) dot_S100000x64_S64x64_S100000x64_1_0_0_1_n_n none h w)

/-- The third layer. -/
def hostLayer3 (h : (⟨S100000x64, .f32⟩ : BufTy).Contents (Elt Ideal)) (src dst : (⟨S1600000, .i32⟩ : BufTy).Contents (Elt Ideal))
    (w : (⟨S64x40, .f32⟩ : BufTy).Contents (Elt Ideal)) : (⟨S100000x40, .f32⟩ : BufTy).Contents (Elt Ideal) :=
  aggregate40 src dst (Host.dotGeneral (F := Ideal) (φ₁ := .f32) (φ₂ := .f32) dot_S100000x64_S64x40_S100000x40_1_0_0_1_n_n none h w)

/-- The reference's 57 operations composed, as the reference spells them. -/
def networkHost (x : (⟨S100000x128, .f32⟩ : BufTy).Contents (Elt Ideal)) (src dst : (⟨S1600000, .i32⟩ : BufTy).Contents (Elt Ideal))
    (w1 : (⟨S128x64, .f32⟩ : BufTy).Contents (Elt Ideal)) (w2 : (⟨S64x64, .f32⟩ : BufTy).Contents (Elt Ideal))
    (w3 : (⟨S64x40, .f32⟩ : BufTy).Contents (Elt Ideal)) : (⟨S100000x40, .f32⟩ : BufTy).Contents (Elt Ideal) :=
  hostLogSoftmax (hostLayer3 (hostLayer2 (hostLayer1 x src dst w1) src dst w2) src dst w3)

/-- … is the network. -/
theorem networkHost_eq (x : (⟨S100000x128, .f32⟩ : BufTy).Contents (Elt Ideal)) (src dst : (⟨S1600000, .i32⟩ : BufTy).Contents (Elt Ideal))
    (w1 : (⟨S128x64, .f32⟩ : BufTy).Contents (Elt Ideal)) (w2 : (⟨S64x64, .f32⟩ : BufTy).Contents (Elt Ideal))
    (w3 : (⟨S64x40, .f32⟩ : BufTy).Contents (Elt Ideal)) :
    networkHost x src dst w1 w2 w3 = Cert.KernelIdeal.Net.network x src dst w1 w2 w3 := by
  unfold networkHost hostLayer3 hostLayer2 hostLayer1 Cert.KernelIdeal.Net.network
  rw [dot1, dot2, dot3, hostLogSoftmax_eq, aggregate64_eq, aggregate40_eq]

end Cert.ReferenceIdeal.RefValue

end
-- ==== Proof.RefValue.lean ====
/-
  The reference's result as the network of its arguments.

  The reference's 57 host operations come in four groups: three of fourteen (a whole product and the sparse step) and
  the last fifteen (the log-softmax). The buffer contents after each of the first three groups are named, so that each
  group is read against what the group before it left and no composed term is ever written out. The edge lists and the
  weight matrices are never written, so every group finds them as launched. The last group applies the row-wise
  log-softmax to what the third left. So the reference's run ends with the result buffer at `network` of the six
  arguments.
-/
import proofs.«122634_j76922864272070_1_alg».proof.Proof.RefRun
import proofs.«122634_j76922864272070_1_alg».proof.Proof.RefDense

set_option maxRecDepth 16384

noncomputable section

namespace Cert.ReferenceIdeal.RefValue

open Cert.ReferenceIdeal Cert.RowMath
open Idealize.ShloMosaic Idealize.ShloMosaic.TcCoe Idealize.ShloMosaic.StableHlo Idealize.SL.Sem

/-- The fold over a list in two parts is the fold over the second part from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (m : (ℓ : Loc nD τ sig) → Buf (Elt Ideal) ℓ) (c : Dev nD)

/-- The buffer contents after the first layer's fourteen operations … -/
def R1 : Valuation τ sig (Elt Ideal) := after ((Value.ops (F := Ideal)).take 14) (launchContents m c)
/-- … after the second layer's … -/
def R2 : Valuation τ sig (Elt Ideal) := after (((Value.ops (F := Ideal)).drop 14).take 14) (R1 m c)
/-- … and after the third layer's. -/
def R3 : Valuation τ sig (Elt Ideal) := after (((Value.ops (F := Ideal)).drop 28).take 14) (R2 m c)

/-- The whole fold is the last fifteen operations' fold from there. -/
theorem fold_split (b : DevRef τ sig) :
    after (Value.ops (F := Ideal)) (launchContents m c) b = after ((Value.ops (F := Ideal)).drop 42) (R3 m c) b := by
  show after ((Value.ops (F := Ideal)).take 14 ++ (((Value.ops (F := Ideal)).drop 14).take 14 ++ (((Value.ops (F := Ideal)).drop 28).take 14 ++ (Value.ops (F := Ideal)).drop 42)))
    (launchContents m c) b = _
  rw [after_append, after_append, after_append]
  rfl

/-! ## The first layer -/

theorem R1_arg1 : R1 m c (Proc.devRef .tc main_arg1) = m ((c.tc : Thread nD τ).loc main_arg1) := by
  unfold R1
  simp only [Value.ops, List.take_succ_cons, List.take_zero, List.drop_succ_cons, List.drop_zero]
  after_results_simp <;> rfl
theorem R1_arg2 : R1 m c (Proc.devRef .tc main_arg2) = m ((c.tc : Thread nD τ).loc main_arg2) := by
  unfold R1
  simp only [Value.ops, List.take_succ_cons, List.take_zero, List.drop_succ_cons, List.drop_zero]
  after_results_simp <;> rfl
theorem R1_arg4 : R1 m c (Proc.devRef .tc main_arg4) = m ((c.tc : Thread nD τ).loc main_arg4) := by
  unfold R1
  simp only [Value.ops, List.take_succ_cons, List.take_zero, List.drop_succ_cons, List.drop_zero]
  after_results_simp <;> rfl
theorem R1_arg5 : R1 m c (Proc.devRef .tc main_arg5) = m ((c.tc : Thread nD τ).loc main_arg5) := by
  unfold R1
  simp only [Value.ops, List.take_succ_cons, List.take_zero, List.drop_succ_cons, List.drop_zero]
  after_results_simp <;> rfl

set_option maxHeartbeats 1000000 in
theorem R1_v10 : R1 m c (Proc.devRef .tc main_v10) = hostLayer1 (m ((c.tc : Thread nD τ).loc main_arg0)) (m ((c.tc : Thread nD τ).loc main_arg1)) (m ((c.tc : Thread nD τ).loc main_arg2)) (m ((c.tc : Thread nD τ).loc main_arg3)) := by
  unfold R1
  simp only [Value.ops, List.take_succ_cons, List.take_zero, List.drop_succ_cons, List.drop_zero]
  after_results
  rfl

/-! ## The second layer -/

theorem R2_arg1 : R2 m c (Proc.devRef .tc main_arg1) = m ((c.tc : Thread nD τ).loc main_arg1) := by
  refine Eq.trans ?_ (R1_arg1 m c)
  unfold R2
  simp only [Value.ops, List.take_succ_cons, List.take_zero, List.drop_succ_cons, List.drop_zero]
  after_results_simp <;> rfl
theorem R2_arg2 : R2 m c (Proc.devRef .tc main_arg2) = m ((c.tc : Thread nD τ).loc main_arg2) := by
  refine Eq.trans ?_ (R1_arg2 m c)
  unfold R2
  simp only [Value.ops, List.take_succ_cons, List.take_zero, List.drop_succ_cons, List.drop_zero]
  after_results_simp <;> rfl
theorem R2_arg5 : R2 m c (Proc.devRef .tc main_arg5) = m ((c.tc : Thread nD τ).loc main_arg5) := by
  refine Eq.trans ?_ (R1_arg5 m c)
  unfold R2
  simp only [Value.ops, List.take_succ_cons, List.take_zero, List.drop_succ_cons, List.drop_zero]
  after_results_simp <;> rfl

set_option maxHeartbeats 1000000 in
theorem R2_v21 : R2 m c (Proc.devRef .tc main_v21) = hostLayer2 (hostLayer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg2)) (m ((c.tc : Thread nD τ).loc main_arg4)) := by
  unfold R2
  simp only [Value.ops, List.take_succ_cons, List.take_zero, List.drop_succ_cons, List.drop_zero]
  after_results
  rw [R1_v10 m c, R1_arg1 m c, R1_arg2 m c, R1_arg4 m c]
  rfl

/-! ## The third layer -/

theorem R3_arg1 : R3 m c (Proc.devRef .tc main_arg1) = m ((c.tc : Thread nD τ).loc main_arg1) := by
  refine Eq.trans ?_ (R2_arg1 m c)
  unfold R3
  simp only [Value.ops, List.take_succ_cons, List.take_zero, List.drop_succ_cons, List.drop_zero]
  after_results_simp <;> rfl
theorem R3_arg2 : R3 m c (Proc.devRef .tc main_arg2) = m ((c.tc : Thread nD τ).loc main_arg2) := by
  refine Eq.trans ?_ (R2_arg2 m c)
  unfold R3
  simp only [Value.ops, List.take_succ_cons, List.take_zero, List.drop_succ_cons, List.drop_zero]
  after_results_simp <;> rfl

set_option maxHeartbeats 1000000 in
theorem R3_v32 : R3 m c (Proc.devRef .tc main_v32) = hostLayer3 (hostLayer2 (hostLayer1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg2)) (m ((c.tc : Thread nD τ).loc main_arg4))) (m ((c.tc : Thread nD τ).loc main_arg1)) (m ((c.tc : Thread nD τ).loc main_arg2)) (m ((c.tc : Thread nD τ).loc main_arg5)) := by
  unfold R3
  simp only [Value.ops, List.take_succ_cons, List.take_zero, List.drop_succ_cons, List.drop_zero]
  after_results
  rw [R2_v21 m c, R2_arg1 m c, R2_arg2 m c, R2_arg5 m c]
  rfl

/-! ## The log-softmax

The reference calls its log-softmax as a function, and the called function's operations carry the types of the
tensor values they hold: each moves contents to a buffer's own type and back. Moved there and back, contents are
unchanged, whatever the reference; at the two ends of the group (the scores read, the result written) the move is
the identity at those two buffers. -/

/-- Contents moved to a typed reference's buffer type and back are the contents. -/
theorem ofBuf_toBuf {Val : EltTy → Type} {T : BufTy} (x : TRef sig T) (v : T.Contents Val) : x.ofBuf (x.toBuf v) = v := by
  obtain ⟨r, h, _, _⟩ := x
  subst h
  rfl

/-- At the result buffer the move is the identity … -/
theorem toBuf_result (v : (⟨S100000x40, .f32⟩ : BufTy).Contents (Elt Ideal)) :
    (TRef.of (T := ⟨S100000x40, .f32⟩) main_v33).toBuf v = v := rfl

/-- … and so it is, the other way, at the third layer's result. -/
theorem ofBuf_scores (v : main_v32.ty.Contents (Elt Ideal)) :
    (TRef.of (T := ⟨S100000x40, .f32⟩) main_v32).ofBuf v = v := rfl

theorem tail_value : after ((Value.ops (F := Ideal)).drop 42) (R3 m c) (Proc.devRef .tc main_v33)
    = hostLogSoftmax (R3 m c (Proc.devRef .tc main_v32)) := by
  simp only [Value.ops, List.take_succ_cons, List.take_zero, List.drop_succ_cons, List.drop_zero]
  after_results
  simp only [ofBuf_toBuf]
  rw [toBuf_result]
  simp only [ofBuf_scores]
  unfold hostLogSoftmax columnOf logColumnOf rowMaxHost
  with_reducible rfl

/-- The reference's result buffer ends at the network of the six arguments. -/
theorem result_value :
    Value.res_main_v33 (F := Ideal) m c
      = Cert.KernelIdeal.Net.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Value.res_main_v33
  rw [fold_split m c, tail_value m c, R3_v32 m c]
  exact networkHost_eq _ _ _ _ _ _

end Cert.ReferenceIdeal.RefValue

end
-- ==== Proof.lean ====
/- Three graph-convolution layers and a log-softmax: the tiled kernel against the plain reference, over the extended reals.

   Both programs compute, from node features `x : [100000, 128]`, two edge lists `src, dst : [1600000]` and three weight
   matrices, the array `logSoftmaxRows (agg (agg (agg (x · W1)) · W2) · W3)`: a dense product, then for every edge the row
   of the product its (wrapped) source names added into the row its target names, three times over, and a log-softmax
   along each node's 40 scores (Proof/Net.lean states this function; Proof/RowMath.lean its two dense steps).

   The kernel's program launches a tiled kernel for each dense step: ten blocks of 10000 rows, each block's product
   with the whole weight matrix (rounded to bf16 on the way in, which is the identity on extended reals, into a zero
   accumulator), and for the log-softmax ten blocks of 10000 rows, each row's maximum a fold of `max` from -∞ over its 40
   lanes. An entry of a product, and an entry of a row-wise log-softmax, reads one row of the left operand only, so the
   block of rows of the result is the result of the block of rows, and the ten blocks tile the rows: each launch leaves
   the whole product, or the whole log-softmax, of the arrays it found (Proof/Layer0.lean, Layer1.lean, Layer2.lean,
   SoftmaxRows.lean). Between the launches the host performs the sparse step; the reference performs the same host
   operations, so that step is carried as one function and never opened. Reading the buffer contents boundary by
   boundary gives the kernel's result (Proof/KernelRun.lean, KernelValue.lean); reading the reference's 57 operations,
   whose whole products are the same finite sums and whose last ten operations are the same log-softmax with one more
   `max` against -∞, gives the reference's (Proof/RefRun.lean, RefValue.lean). No law that needs finiteness is used:
   the sums are the same sums, so the precondition is never opened. The ideal pass rewrote nothing, so `preserves` is
   `True`. -/
import proofs.«122634_j76922864272070_1_alg».proof.Defs
import proofs.«122634_j76922864272070_1_alg».proof.Proof.Gen.Kernel
import proofs.«122634_j76922864272070_1_alg».proof.Proof.Gen.Kernel.Frame
import proofs.«122634_j76922864272070_1_alg».proof.Proof.Gen.KernelIdeal
import proofs.«122634_j76922864272070_1_alg».proof.Proof.Gen.KernelIdeal.Frame
import proofs.«122634_j76922864272070_1_alg».proof.Proof.Gen.ReferenceIdeal
import proofs.«122634_j76922864272070_1_alg».proof.Proof.Gen.Pre_finite_inputs
import proofs.«122634_j76922864272070_1_alg».proof.Proof.RefRun
import proofs.«122634_j76922864272070_1_alg».proof.Proof.KernelRun
import proofs.«122634_j76922864272070_1_alg».proof.Proof.KernelValue
import proofs.«122634_j76922864272070_1_alg».proof.Proof.RefValue
import Idealize.ShloMosaic.Adequacy
import Idealize.ShloMosaic.Init

noncomputable section

namespace Cert.Proof

open Idealize.ShloMosaic Idealize.SL.Sem

/-- The kernel's program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Run from memories that agree on the six arguments, both programs end with the result buffer at `network` of those
    arguments. -/
theorem algebraic : Cert.algebraic_KernelIdeal_ReferenceIdeal := by
  intro m ρ m' ρ' _ hagree
  refine ⟨fun c => Cert.KernelIdeal.Net.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_value m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_value m' c, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
